-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3200000 : Shape := ⟨2, ![2, 3200000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64x32 .f32) (main_arg6 : FVec F S32 .f32) (main_arg7 : FVec F S64x32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  main_v33

def fn {F : FTy → Type} [FloatOps F] (main_arg0 : FVec F S100000x64 .f32) (main_arg1 : IVec S2x3200000 32) (main_arg2 : FVec F S64x64 .f32) (main_arg3 : FVec F S64 .f32) (main_arg4 : FVec F S64x64 .f32) (main_arg5 : FVec F S64x32 .f32) (main_arg6 : FVec F S32 .f32) (main_arg7 : FVec F S64x32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x3200000 : Shape := ⟨2, ![2, 3200000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S3200000x64 : Shape := ⟨2, ![3200000, 64]⟩
abbrev S2000x64 : Shape := ⟨2, ![2000, 64]⟩
abbrev S1x64 : Shape := ⟨2, ![1, 64]⟩
abbrev S100000x32 : Shape := ⟨2, ![100000, 32]⟩
abbrev S2000x32 : Shape := ⟨2, ![2000, 32]⟩
abbrev S1x32 : Shape := ⟨2, ![1, 32]⟩

abbrev nBuf : Space → Nat
  | .hbm => 54
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .f32⟩
  | .hbm, ⟨13, _⟩ => ⟨S3200000, .f32⟩
  | .hbm, ⟨14, _⟩ => ⟨S_, .f32⟩
  | .hbm, ⟨15, _⟩ => ⟨S100000, .f32⟩
  | .hbm, ⟨16, _⟩ => ⟨S3200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S3200000, .i32⟩
  | .hbm, ⟨24, _⟩ => ⟨S3200000, .i1⟩
  | .hbm, ⟨25, _⟩ => ⟨S_, .i32⟩
  | .hbm, ⟨26, _⟩ => ⟨S3200000, .i32⟩
  | .hbm, ⟨27, _⟩ => ⟨S3200000, .i32⟩
  | .hbm, ⟨28, _⟩ => ⟨S3200000, .i32⟩
  | .hbm, ⟨29, _⟩ => ⟨S3200000x1, .i32⟩
  | .hbm, ⟨30, _⟩ => ⟨S3200000x64, .f32⟩
  | .hbm, ⟨31, _⟩ => ⟨S_, .f32⟩
  | .hbm, ⟨32, _⟩ => ⟨S100000x64, .f32⟩
  | .hbm, ⟨33, _⟩ => ⟨S3200000x1, .i32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S_, .i32⟩
  | .hbm, ⟨39, _⟩ => ⟨S3200000, .i32⟩
  | .hbm, ⟨40, _⟩ => ⟨S3200000, .i1⟩
  | .hbm, ⟨41, _⟩ => ⟨S_, .i32⟩
  | .hbm, ⟨42, _⟩ => ⟨S3200000, .i32⟩
  | .hbm, ⟨43, _⟩ => ⟨S3200000, .i32⟩
  | .hbm, ⟨44, _⟩ => ⟨S3200000, .i32⟩
  | .hbm, ⟨45, _⟩ => ⟨S3200000x1, .i32⟩
  | .hbm, ⟨46, _⟩ => ⟨S3200000x64, .f32⟩
  | .hbm, ⟨47, _⟩ => ⟨S_, .f32⟩
  | .hbm, ⟨48, _⟩ => ⟨S100000x64, .f32⟩
  | .hbm, ⟨49, _⟩ => ⟨S3200000x1, .i32⟩
  | .hbm, ⟨50, _⟩ => ⟨S100000x64, .f32⟩
  | .hbm, ⟨51, _⟩ => ⟨S100000x64, .f32⟩
  | .hbm, ⟨52, _⟩ => ⟨S100000x64, .f32⟩
  | .hbm, ⟨53, _⟩ => ⟨S100000x32, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S64x32, .f32⟩
  | .local _ .vmem, ⟨14, _⟩ => ⟨S32, .f32⟩
  | .local _ .vmem, ⟨15, _⟩ => ⟨S64x32, .f32⟩
  | .local _ .vmem, ⟨16, _⟩ => ⟨S2000x32, .f32⟩
  | .local _ .vmem, ⟨17, _⟩ => ⟨S2000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  scatter_S100000_S3200000x1_S3200000_n_0_0_1_wf : ScatterDims.WF S100000 S3200000x1 S3200000 [] [0] [0] 1
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S2000x64_S64x64_S2000x64_1_0_0_1_n_n_wf : DotDims.WF S2000x64 S64x64 S2000x64 [1] [0] [0] [1] [] []
  dot_S2000x64_S64x32_S2000x32_1_0_0_1_n_n_wf : DotDims.WF S2000x64 S64x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .f32 = 32 ∨ (Rect.block (s := S100000x64) S2000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32.size a ≤ S32.size a
  hwx1_3 : ∀ i : grid1.Coords, EltTy.bits .f32 = 32 ∨ (Rect.block (s := S32) S32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x32.size a ≤ S100000x32.size a
  hwx1_5 : ∀ i : grid1.Coords, EltTy.bits .f32 = 32 ∨ (Rect.block (s := S100000x32) S2000x32.size (cc1_transform_5 i) (hinb1_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf

abbrev win0_0 : Pipeline.Window sig grid0 :=
  Pipeline.Window.ofSpec (Memref.whole main_v22) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v35) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S2000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x3200000 : Shape := ⟨2, ![2, 3200000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x64 : Shape := ⟨2, ![3200000, 64]⟩
abbrev S100000 : Shape := ⟨1, ![100000]⟩
abbrev S100000x1 : Shape := ⟨2, ![100000, 1]⟩
abbrev S1x64 : Shape := ⟨2, ![1, 64]⟩
abbrev S100000x32 : Shape := ⟨2, ![100000, 32]⟩
abbrev S1x32 : Shape := ⟨2, ![1, 32]⟩

abbrev nBuf : Space → Nat
  | .hbm => 77
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x64, .f32⟩
  | .hbm, ⟨21, _⟩ => ⟨S_, .f32⟩
  | .hbm, ⟨22, _⟩ => ⟨S100000x64, .f32⟩
  | .hbm, ⟨23, _⟩ => ⟨S3200000x1, .i32⟩
  | .hbm, ⟨24, _⟩ => ⟨S100000x64, .f32⟩
  | .hbm, ⟨25, _⟩ => ⟨S_, .f32⟩
  | .hbm, ⟨26, _⟩ => ⟨S3200000, .f32⟩
  | .hbm, ⟨27, _⟩ => ⟨S_, .f32⟩
  | .hbm, ⟨28, _⟩ => ⟨S100000, .f32⟩
  | .hbm, ⟨29, _⟩ => ⟨S3200000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S3200000, .i32⟩
  | .hbm, ⟨48, _⟩ => ⟨S3200000, .i1⟩
  | .hbm, ⟨49, _⟩ => ⟨S_, .i32⟩
  | .hbm, ⟨50, _⟩ => ⟨S3200000, .i32⟩
  | .hbm, ⟨51, _⟩ => ⟨S3200000, .i32⟩
  | .hbm, ⟨52, _⟩ => ⟨S3200000, .i32⟩
  | .hbm, ⟨53, _⟩ => ⟨S3200000x1, .i32⟩
  | .hbm, ⟨54, _⟩ => ⟨S3200000x64, .f32⟩
  | .hbm, ⟨55, _⟩ => ⟨S_, .f32⟩
  | .hbm, ⟨56, _⟩ => ⟨S100000x64, .f32⟩
  | .hbm, ⟨57, _⟩ => ⟨S3200000x1, .i32⟩
  | .hbm, ⟨58, _⟩ => ⟨S100000x64, .f32⟩
  | .hbm, ⟨59, _⟩ => ⟨S_, .f32⟩
  | .hbm, ⟨60, _⟩ => ⟨S3200000, .f32⟩
  | .hbm, ⟨61, _⟩ => ⟨S_, .f32⟩
  | .hbm, ⟨62, _⟩ => ⟨S100000, .f32⟩
  | .hbm, ⟨63, _⟩ => ⟨S3200000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S100000x32, .f32⟩
  | .hbm, ⟨72, _⟩ => ⟨S1x32, .f32⟩
  | .hbm, ⟨73, _⟩ => ⟨S100000x32, .f32⟩
  | .hbm, ⟨74, _⟩ => ⟨S100000x32, .f32⟩
  | .hbm, ⟨75, _⟩ => ⟨S100000x32, .f32⟩
  | .hbm, ⟨76, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  scatter_S100000_S3200000x1_S3200000_n_0_0_1_wf : ScatterDims.WF S100000 S3200000x1 S3200000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.SageSpec.lean ====
/-
  One layer of a two-layer mean-aggregating graph convolution, index by index over the extended reals.

  For an aggregated-neighbour matrix `A : [R, 64]`, a feature matrix `X : [R, 64]`, weights `Wl, Wr : [64, n]` and a
  bias `b : [n]`, the layer's pre-activation at `(p, q)` is

      (∑ₖ A(p,k) · Wl(k,q) + b(q)) + ∑ₖ X(p,k) · Wr(k,q),

  in exactly this grouping.  The rectifier takes, entry by entry, the maximum with the float zero.  Row `p` of the
  result depends on row `p` of `A` and of `X` only, so a block of consecutive rows of the layer is the layer of the
  same rows of `A` and `X` (`lin_rows`).  No law of the extended reals beyond congruence is used: both programs
  form the same sums in the same grouping.
-/
import Idealize.ShloMosaic.Lib.ValueIdx
import Idealize.ShloMosaic.PureOps.Ideal

noncomputable section

namespace Cert.Sage

open Idealize.ShloMosaic Idealize.ShloMosaic.ValueIdx

/-- The layer before its activation: `(A · Wl + b) + X · Wr`, entry by entry. -/
def lin {R n : ℕ} (A X : FVec Ideal ⟨2, ![R, 64]⟩ .f32) (Wl : FVec Ideal ⟨2, ![64, n]⟩ .f32) (b : FVec Ideal ⟨1, ![n]⟩ .f32)
    (Wr : FVec Ideal ⟨2, ![64, n]⟩ .f32) : FVec Ideal ⟨2, ![R, n]⟩ .f32 :=
  fun i => (∑ k : Fin 64, A (ix2 (i 0) k) * Wl (ix2 k (i 1)) + b (ix1 (i 1))) + ∑ k : Fin 64, X (ix2 (i 0) k) * Wr (ix2 k (i 1))

theorem lin_apply {R n : ℕ} (A X : FVec Ideal ⟨2, ![R, 64]⟩ .f32) (Wl : FVec Ideal ⟨2, ![64, n]⟩ .f32) (b : FVec Ideal ⟨1, ![n]⟩ .f32)
    (Wr : FVec Ideal ⟨2, ![64, n]⟩ .f32) (p : Fin R) (q : Fin n) :
    lin A X Wl b Wr (ix2 p q)
      = (∑ k : Fin 64, A (ix2 p k) * Wl (ix2 k q) + b (ix1 q)) + ∑ k : Fin 64, X (ix2 p k) * Wr (ix2 k q) := rfl

/-- The rectifier: the maximum with the float zero, entry by entry. -/
def relu {s : Shape} (x : FVec Ideal s .f32) : FVec Ideal s .f32 := fun i => max (x i) (Ideal.ofBits .f32 0x00000000#32)

theorem relu_apply {s : Shape} (x : FVec Ideal s .f32) (i : s.Idx) : relu x i = max (x i) (Ideal.ofBits .f32 0x00000000#32) := rfl

/-- Rows `o + p` of the layer are the layer of rows `o + p` of `A` and `X`: if `A'` and `X'` hold those rows, entry
    `(p, q)` of their layer is entry `(o + p, q)` of the whole one. -/
theorem lin_rows {R R' n : ℕ} (A X : FVec Ideal ⟨2, ![R, 64]⟩ .f32) (A' X' : FVec Ideal ⟨2, ![R', 64]⟩ .f32)
    (Wl : FVec Ideal ⟨2, ![64, n]⟩ .f32) (b : FVec Ideal ⟨1, ![n]⟩ .f32) (Wr : FVec Ideal ⟨2, ![64, n]⟩ .f32)
    (p' : Fin R') (p : Fin R) (q : Fin n)
    (hA : ∀ k : Fin 64, A' (ix2 p' k) = A (ix2 p k)) (hX : ∀ k : Fin 64, X' (ix2 p' k) = X (ix2 p k)) :
    lin A' X' Wl b Wr (ix2 p' q) = lin A X Wl b Wr (ix2 p q) := by
  rw [lin_apply, lin_apply]
  simp only [hA, hX]

end Cert.Sage

end
-- ==== Proof.SageNet.lean ====
/-
  The network both programs compute, with the neighbour mean as ONE function used by both layers.

  From the edge list `ei : [2, E]` take the source row `src = ei[0]` and the destination row `dst = ei[1]`.  The
  in-degree column is `max (scatter-add of ones at dst) 1`.  The neighbour mean of a feature matrix is: gather its rows
  at `src` (a negative index wrapped once by the row count), add them into the rows `dst` of a zero matrix, divide
  every row by the in-degree.  None of this is ever opened: the kernel program and the reference apply the same host
  operations with the same dimension records, so the mean is carried as one opaque function `mean` of the feature
  matrix and the edge list.

  With it the hidden layer is `relu (lin (mean x) x W1l b1l W1r)` and the output is `lin (mean h) h W2l b2l W2r`.
-/
import proofs.«100469_j53996328845505_1_alg».proof.Proof.Gen.KernelIdeal
import proofs.«100469_j53996328845505_1_alg».proof.Proof.SageSpec

noncomputable section

namespace Cert.Sage.Net

open Idealize.ShloMosaic Idealize.ShloMosaic.TcCoe
open Cert.KernelIdeal Cert.KernelIdeal.Facts₀ Cert.Sage

/-- The source row of the edge list, as a vector. -/
def srcOf (ei : (⟨S2x3200000, .i32⟩ : BufTy).Contents (Elt Ideal)) : (⟨S3200000, .i32⟩ : BufTy).Contents (Elt Ideal) :=
  shapeCast _ (extractStridedSlice S1x3200000 ![0, 0] ei slices_S2x3200000_S1x3200000_0_0) shapeCasts_S1x3200000_S3200000

/-- The destination row of the edge list, as a vector. -/
def dstOf (ei : (⟨S2x3200000, .i32⟩ : BufTy).Contents (Elt Ideal)) : (⟨S3200000, .i32⟩ : BufTy).Contents (Elt Ideal) :=
  shapeCast _ (extractStridedSlice S1x3200000 ![1, 0] ei slices_S2x3200000_S1x3200000_1_0) shapeCasts_S1x3200000_S3200000

/-- The in-degree column: ones added at the destinations, floored at one. -/
def degOf (dst : (⟨S3200000, .i32⟩ : BufTy).Contents (Elt Ideal)) : (⟨S100000x1, .f32⟩ : BufTy).Contents (Elt Ideal) :=
  broadcastInDim S100000x1 ![0] bcast_S100000_S100000x1_0
    (maximumf
      (Host.scatterAdd (F := Ideal) scatter_S100000_S3200000x1_S3200000_n_0_0_1
        (broadcastInDim S100000 ![] bcast_S_S100000 (constant (F := Ideal) S_ .f32 0x00000000#32))
        (broadcastInDim S3200000x1 ![0] bcast_S3200000_S3200000x1_0 dst)
        (broadcastInDim S3200000 ![] bcast_S_S3200000 (constant (F := Ideal) S_ .f32 0x3F800000#32)))
      (broadcastInDim S100000 ![] bcast_S_S100000 (constant (F := Ideal) S_ .f32 0x3F800000#32)))

/-- The neighbour mean from its parts: rows of `feat` gathered at `src`, summed into rows `dst`, divided by `deg`. -/
def meanOf (feat : (⟨S100000x64, .f32⟩ : BufTy).Contents (Elt Ideal)) (src dst : (⟨S3200000, .i32⟩ : BufTy).Contents (Elt Ideal))
    (deg : (⟨S100000x1, .f32⟩ : BufTy).Contents (Elt Ideal)) : (⟨S100000x64, .f32⟩ : BufTy).Contents (Elt Ideal) :=
  Host.divf (F := Ideal)
    (Host.scatterAdd (F := Ideal) scatter_S100000x64_S3200000x1_S3200000x64_1_0_0_1
      (broadcastInDim S100000x64 ![] bcast_S_S100000x64 (constant (F := Ideal) S_ .f32 0x00000000#32))
      (broadcastInDim S3200000x1 ![0] bcast_S3200000_S3200000x1_0 dst)
      (Host.gather gather_S100000x64_S3200000x1_S3200000x64_1_0_n_n_0_1_164 feat
        (broadcastInDim S3200000x1 ![0] bcast_S3200000_S3200000x1_0
          (select (cmpi .slt src (broadcastInDim S3200000 ![] bcast_S_S3200000 (constantI S_ 32 0#32)))
            (addi src (broadcastInDim S3200000 ![] bcast_S_S3200000 (constantI S_ 32 100000#32))) src))))
    (broadcastInDim S100000x64 ![0, 1] bcast_S100000x1_S100000x64_0_1 deg)

/-- The neighbour mean of a feature matrix over an edge list. -/
def mean (feat : (⟨S100000x64, .f32⟩ : BufTy).Contents (Elt Ideal)) (ei : (⟨S2x3200000, .i32⟩ : BufTy).Contents (Elt Ideal)) :
    (⟨S100000x64, .f32⟩ : BufTy).Contents (Elt Ideal) :=
  meanOf feat (srcOf ei) (dstOf ei) (degOf (dstOf ei))

/-- The hidden layer. -/
def hidden (x : (⟨S100000x64, .f32⟩ : BufTy).Contents (Elt Ideal)) (ei : (⟨S2x3200000, .i32⟩ : BufTy).Contents (Elt Ideal))
    (W1l : (⟨S64x64, .f32⟩ : BufTy).Contents (Elt Ideal)) (b1l : (⟨S64, .f32⟩ : BufTy).Contents (Elt Ideal))
    (W1r : (⟨S64x64, .f32⟩ : BufTy).Contents (Elt Ideal)) : (⟨S100000x64, .f32⟩ : BufTy).Contents (Elt Ideal) :=
  relu (lin (mean x ei : Vec Ideal S100000x64 .f32) (x : Vec Ideal S100000x64 .f32) (W1l : Vec Ideal S64x64 .f32) (b1l : Vec Ideal S64 .f32) (W1r : Vec Ideal S64x64 .f32))

/-- The network's output. -/
def output (x : (⟨S100000x64, .f32⟩ : BufTy).Contents (Elt Ideal)) (ei : (⟨S2x3200000, .i32⟩ : BufTy).Contents (Elt Ideal))
    (W1l : (⟨S64x64, .f32⟩ : BufTy).Contents (Elt Ideal)) (b1l : (⟨S64, .f32⟩ : BufTy).Contents (Elt Ideal))
    (W1r : (⟨S64x64, .f32⟩ : BufTy).Contents (Elt Ideal)) (W2l : (⟨S64x32, .f32⟩ : BufTy).Contents (Elt Ideal))
    (b2l : (⟨S32, .f32⟩ : BufTy).Contents (Elt Ideal)) (W2r : (⟨S64x32, .f32⟩ : BufTy).Contents (Elt Ideal)) :
    (⟨S100000x32, .f32⟩ : BufTy).Contents (Elt Ideal) :=
  lin (mean (hidden x ei W1l b1l W1r) ei : Vec Ideal S100000x64 .f32) (hidden x ei W1l b1l W1r : Vec Ideal S100000x64 .f32)
    (W2l : Vec Ideal S64x32 .f32) (b2l : Vec Ideal S32 .f32) (W2r : Vec Ideal S64x32 .f32)

end Cert.Sage.Net

end
-- ==== Proof.HostStages.lean ====
/-
  The host stretches of the kernel program, read as the neighbour mean.

  The first stretch computes, from the launch memory, the source and destination rows of the edge list, the in-degree
  column and the neighbour mean of the input features; it writes no argument.  The second stretch computes the
  neighbour mean of whatever the first region left in its output array, from the same rows and in-degree column; it
  writes neither that array nor an argument.  So the first region finds `mean x` beside `x` and the first layer's
  weights, and the second region finds `mean h` beside `h` and the second layer's weights, `h` being the first
  region's output.
-/
import proofs.«100469_j53996328845505_1_alg».proof.Proof.Gen.KernelIdeal.Frame
import proofs.«100469_j53996328845505_1_alg».proof.Proof.SageNet
import Idealize.ShloMosaic.Lib.StableHlo.Run

set_option maxRecDepth 16384

noncomputable section

namespace Cert.Sage.Host

open Idealize.ShloMosaic Idealize.ShloMosaic.TcCoe Idealize.SL.Sem Idealize.ShloMosaic.StableHlo
open Cert.KernelIdeal Cert.KernelIdeal.Gen Cert.Sage Cert.Sage.Net

variable (m : (ℓ : Loc nD τ sig) → Buf (Elt Ideal) ℓ) (ρ : Dev nD → PrngReg)

/-! ## The first stretch: what the first region finds -/

set_option maxHeartbeats 4000000 in
/-- The first region's aggregated operand is the neighbour mean of the input features. -/
theorem entry1_mean (c : Dev nD) :
    V1 m ρ c main_v22 = mean (m ((c : Thread nD τ).loc main_arg0)) (m ((c : Thread nD τ).loc main_arg1)) := by
  show StableHlo.after hostOps0 (W0 m ρ c) (Proc.devRef .tc main_v22) = _
  after_results_simp
  rfl

set_option maxHeartbeats 4000000 in
theorem entry1_src (c : Dev nD) : W1 m ρ c (Proc.devRef .tc main_v1) = srcOf (m ((c : Thread nD τ).loc main_arg1)) := by
  show StableHlo.after hostOps0 (W0 m ρ c) (Proc.devRef .tc main_v1) = _
  after_results_simp
  rfl

set_option maxHeartbeats 4000000 in
theorem entry1_dst (c : Dev nD) : W1 m ρ c (Proc.devRef .tc main_v3) = dstOf (m ((c : Thread nD τ).loc main_arg1)) := by
  show StableHlo.after hostOps0 (W0 m ρ c) (Proc.devRef .tc main_v3) = _
  after_results_simp
  rfl

set_option maxHeartbeats 4000000 in
theorem entry1_deg (c : Dev nD) : W1 m ρ c (Proc.devRef .tc main_v10) = degOf (dstOf (m ((c : Thread nD τ).loc main_arg1))) := by
  show StableHlo.after hostOps0 (W0 m ρ c) (Proc.devRef .tc main_v10) = _
  after_results_simp
  rfl

/-- No host operation of the first stretch writes an argument. -/
theorem entry1_arg0 (c : Dev nD) : V1 m ρ c main_arg0 = m ((c : Thread nD τ).loc main_arg0) := by
  show StableHlo.after hostOps0 (W0 m ρ c) (Proc.devRef .tc main_arg0) = _
  after_results
theorem entry1_arg2 (c : Dev nD) : V1 m ρ c main_arg2 = m ((c : Thread nD τ).loc main_arg2) := by
  show StableHlo.after hostOps0 (W0 m ρ c) (Proc.devRef .tc main_arg2) = _
  after_results
theorem entry1_arg3 (c : Dev nD) : V1 m ρ c main_arg3 = m ((c : Thread nD τ).loc main_arg3) := by
  show StableHlo.after hostOps0 (W0 m ρ c) (Proc.devRef .tc main_arg3) = _
  after_results
theorem entry1_arg4 (c : Dev nD) : V1 m ρ c main_arg4 = m ((c : Thread nD τ).loc main_arg4) := by
  show StableHlo.after hostOps0 (W0 m ρ c) (Proc.devRef .tc main_arg4) = _
  after_results

end Cert.Sage.Host

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.LayerBody.lean ====
/-
  What the first layer's kernel body computes on one block of rows.

  The body loads a block of 2000 rows of the aggregated matrix and of the feature matrix, the two weight matrices and
  the bias, multiplies each row block by its weights into a zero accumulator, adds the bias row to the first product,
  adds the second product, and rectifies.  Read at `(p, q)` and at the ideal values — where a change of float format
  is the identity and a matrix product into zero is the plain sum of products — that is the rectified layer of the
  block: `max ((∑ₖ a(p,k)·wl(k,q) + b(q)) + ∑ₖ x(p,k)·wr(k,q)) 0`.
-/
import proofs.«100469_j53996328845505_1_alg».proof.Proof.Gen.KernelIdeal.Skeleton
import proofs.«100469_j53996328845505_1_alg».proof.Proof.SageSpec
import proofs.«100469_j53996328845505_1_alg».proof.Proof.LibPlainProduct
import proofs.«100469_j53996328845505_1_alg».proof.Proof.LibRowsProduct
import proofs.«100469_j53996328845505_1_alg».proof.Proof.LibBroadcast
import Idealize.ShloMosaic.Lib.Pipeline.Value
import Idealize.ShloMosaic.Lib.ValueIdx
import Idealize.ShloMosaic.PureOps.Ideal.Laws

noncomputable section

namespace Cert.Sage.Body

open Idealize.ShloMosaic Idealize.ShloMosaic.ValueIdx Cert.KernelIdeal Cert.KernelIdeal.Gen

variable [Cert.KernelIdeal.Facts]

/-- The bias vector re-laid as a row and repeated down the block reads, at `(p, q)`, its entry `q`. -/
theorem bias_apply {a n : ℕ} (b : FVec Ideal ⟨1, ![n]⟩ .f32) (h1 : (⟨1, ![n]⟩ : Shape).ShapeCasts ⟨2, ![1, n]⟩)
    (h2 : (⟨2, ![1, n]⟩ : Shape).Broadcasts ⟨2, ![a, n]⟩) (p : Fin a) (q : Fin n) :
    broadcastTo (⟨2, ![a, n]⟩ : Shape) (shapeCast (⟨2, ![1, n]⟩ : Shape) b h1) h2 (ix2 p q) = b (ix1 q) :=
  (Cert.RowsProduct.broadcastTo_1n_an_apply _ h2 p q).trans (Cert.Layout.shapeCast_row_apply b h1 q)

/-- The first layer's payload at `(p, q)`: the rectified layer of the loaded blocks. -/
theorem pay0_apply (x0 x1 : Vec Ideal S2000x64 .f32) (x2 x4 : Vec Ideal S64x64 .f32) (x3 : Vec Ideal S64 .f32)
    (p : Fin 2000) (q : Fin 64) :
    k0_pay1 (F := Ideal) x0 x1 x2 x4 x3 (ix2 p q) = relu (lin x0 x1 x2 x3 x4) (ix2 p q) := by
  unfold k0_pay1
  rw [relu_apply, lin_apply]
  refine congrArg₂ max (congrArg₂ (· + ·) (congrArg₂ (· + ·) ?_ ?_) ?_) rfl
  · rw [shapeCast_self]
    exact Cert.PlainProduct.matmul_nn_apply _ none (φ₁ := .bf16) (φ₂ := .bf16) x0 x2 p q
  · exact bias_apply x3 _ _ p q
  · exact Cert.PlainProduct.matmul_nn_apply _ none (φ₁ := .bf16) (φ₂ := .bf16) x1 x4 p q

/-- The second layer's payload at `(p, q)`: the layer of the loaded blocks, not rectified. -/
theorem pay1_apply (x0 x1 : Vec Ideal S2000x64 .f32) (x2 x4 : Vec Ideal S64x32 .f32) (x3 : Vec Ideal S32 .f32)
    (p : Fin 2000) (q : Fin 32) :
    k1_pay1 (F := Ideal) x0 x1 x2 x4 x3 (ix2 p q) = lin x0 x1 x2 x3 x4 (ix2 p q) := by
  unfold k1_pay1
  rw [lin_apply]
  refine congrArg₂ (· + ·) (congrArg₂ (· + ·) ?_ ?_) ?_
  · rw [shapeCast_self]
    exact Cert.PlainProduct.matmul_nn_apply _ none (φ₁ := .bf16) (φ₂ := .bf16) x0 x2 p q
  · exact bias_apply x3 _ _ p q
  · rw [shapeCast_self]
    exact Cert.PlainProduct.matmul_nn_apply _ none (φ₁ := .bf16) (φ₂ := .bf16) x1 x4 p q

end Cert.Sage.Body

end
-- ==== Proof.Region0.lean ====
/-
  The first layer's region: from blocks to the array.

  The region walks fifty grid points.  At point `t` it fetches rows `2000 t, …, 2000 t + 1999` of the aggregated matrix
  and of the feature matrix, the whole weight matrices and bias, runs the body, and writes the body's block back as the
  same rows of the output array.  The body's block is the rectified layer of the fetched rows, and a row of the layer
  depends on the same row of its two matrix arguments only, so each write-back is a block of ONE function of the arrays
  the region finds; the fifty blocks tile the output, which therefore ends holding that function.
-/
import proofs.«100469_j53996328845505_1_alg».proof.Proof.Gen.KernelIdeal.Frame
import proofs.«100469_j53996328845505_1_alg».proof.Proof.LayerBody
import Idealize.ShloMosaic.Lib.Pipeline.Value
import Idealize.ShloMosaic.Lib.ValueIdx

set_option maxRecDepth 16384

noncomputable section

namespace Cert.Sage.Region0

open Idealize.ShloMosaic Idealize.ShloMosaic.TcCoe Idealize.ShloMosaic.ValueIdx Idealize.SL.Sem
open Idealize.ShloMosaic.Pipeline (Dat)
open Cert.KernelIdeal Cert.KernelIdeal.Gen Cert.Sage

-- the buffer contents the region is entered from: a parameter, instantiated only when the run is assembled
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- Where each window's block sits at grid point `t`: the two row-blocked inputs and the output at row block `t`,
    the weights and the bias at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Block `t` of the aggregated matrix is its rows `2000 t, …, 2000 t + 1999`. -/
theorem rowsA (c : Dev nD) (t : Fin cfg0.N) (p : Fin 2000) (k : Fin 64) (r : Fin 100000) (hr : r.val = t.val * 2000 + p.val) :
    (iblk0 V c 0 t : Vec Ideal S2000x64 .f32) (ix2 p k) = (V c main_v22 : Vec Ideal S100000x64 .f32) (ix2 r k) := by
  obtain ⟨e0, e1, -⟩ := idx_facts t
  unfold iblk0
  rw [View.read_apply]
  show V c main_v22 _ = V c main_v22 _
  refine congrArg (V c main_v22) (funext fun a => Fin.ext ?_)
  match a with
  | ⟨0, _⟩ => show win0_0.index t (0 : Fin 2) * 2000 + 1 * p.val = r.val; rw [e0, hr]; omega
  | ⟨1, _⟩ => show win0_0.index t (1 : Fin 2) * 64 + 1 * k.val = k.val; rw [e1]; omega

/-- Block `t` of the feature matrix is the same rows of it. -/
theorem rowsX (c : Dev nD) (t : Fin cfg0.N) (p : Fin 2000) (k : Fin 64) (r : Fin 100000) (hr : r.val = t.val * 2000 + p.val) :
    (iblk0 V c 1 t : Vec Ideal S2000x64 .f32) (ix2 p k) = (V c main_arg0 : Vec Ideal S100000x64 .f32) (ix2 r k) := by
  obtain ⟨-, -, e0, e1, -⟩ := idx_facts t
  unfold iblk0
  rw [View.read_apply]
  show V c main_arg0 _ = V c main_arg0 _
  refine congrArg (V c main_arg0) (funext fun a => Fin.ext ?_)
  match a with
  | ⟨0, _⟩ => show win0_1.index t (0 : Fin 2) * 2000 + 1 * p.val = r.val; rw [e0, hr]; omega
  | ⟨1, _⟩ => show win0_1.index t (1 : Fin 2) * 64 + 1 * k.val = k.val; rw [e1]; omega

/-- The weights' and the bias's one block is the whole array, at every point. -/
theorem wholeWl (c : Dev nD) (t : Fin cfg0.N) : (iblk0 V c 2 t : Vec Ideal S64x64 .f32) = V c main_arg2 := by
  obtain ⟨-, -, -, -, e0, e1, -⟩ := idx_facts t
  funext y
  unfold iblk0
  rw [View.read_apply]
  show V c main_arg2 _ = V c main_arg2 _
  refine congrArg (V c main_arg2) (funext fun a => Fin.ext ?_)
  match a with
  | ⟨0, _⟩ => show win0_2.index t (0 : Fin 2) * 64 + 1 * (y 0).val = (y 0).val; rw [e0]; omega
  | ⟨1, _⟩ => show win0_2.index t (1 : Fin 2) * 64 + 1 * (y 1).val = (y 1).val; rw [e1]; omega

theorem wholeB (c : Dev nD) (t : Fin cfg0.N) : (iblk0 V c 3 t : Vec Ideal S64 .f32) = V c main_arg3 := by
  obtain ⟨-, -, -, -, -, -, e0, -⟩ := idx_facts t
  funext y
  unfold iblk0
  rw [View.read_apply]
  show V c main_arg3 _ = V c main_arg3 _
  refine congrArg (V c main_arg3) (funext fun a => Fin.ext ?_)
  match a with
  | ⟨0, _⟩ => show win0_3.index t (0 : Fin 1) * 64 + 1 * (y 0).val = (y 0).val; rw [e0]; omega

theorem wholeWr (c : Dev nD) (t : Fin cfg0.N) : (iblk0 V c 4 t : Vec Ideal S64x64 .f32) = V c main_arg4 := by
  obtain ⟨-, -, -, -, -, -, -, e0, e1, -⟩ := idx_facts t
  funext y
  unfold iblk0
  rw [View.read_apply]
  show V c main_arg4 _ = V c main_arg4 _
  refine congrArg (V c main_arg4) (funext fun a => Fin.ext ?_)
  match a with
  | ⟨0, _⟩ => show win0_4.index t (0 : Fin 2) * 64 + 1 * (y 0).val = (y 0).val; rw [e0]; omega
  | ⟨1, _⟩ => show win0_4.index t (1 : Fin 2) * 64 + 1 * (y 1).val = (y 1).val; rw [e1]; omega

/-- The layer as one function of the arrays the region finds. -/
def G (c : Dev nD) : Vec Ideal S100000x64 .f32 :=
  relu (lin (V c main_v22 : Vec Ideal S100000x64 .f32) (V c main_arg0 : Vec Ideal S100000x64 .f32) (V c main_arg2 : Vec Ideal S64x64 .f32)
    (V c main_arg3 : Vec Ideal S64 .f32) (V c main_arg4 : Vec Ideal S64x64 .f32))

/-- What point `t` writes back is rows `2000 t, …` of the layer. -/
theorem flushed_eq (c : Dev nD) (t : Fin cfg0.N) :
    (dat0 V c).flushed 5 t = ((cfg0.win 5).blk t).view.read (Elt Ideal) (G V c) := by
  obtain ⟨-, -, -, -, -, -, -, -, -, e0, e1⟩ := idx_facts t
  have hN : grid0.N = 50 := N_0
  have ht : t.val < 50 := lt_of_lt_of_eq t.isLt hN
  show (cfg0.win 5).cut (grid0.coords t) ((dat0 V c).after 5 t) = _
  rw [after0_5]
  unfold out0_5
  rw [View.canon_unit_zero hz2]
  simp only [View.ld_unit_zero (S := S2000x64) hz2, View.ld_unit_zero (S := S64x64) hz2, View.ld_unit_zero (S := S64) hz1]
  rw [wholeWl V c t, wholeB V c t, wholeWr V c t]
  funext j
  obtain ⟨p, q, rfl⟩ : ∃ (p : Fin 2000) (q : Fin 64), j = ix2 p q := ⟨j 0, j 1, eq_ix2 j⟩
  rw [View.read_apply]
  have he : ((cfg0.win 5).blk t).view.emb (ix2 p q) = (ix2 (⟨t.val * 2000 + p.val, by have := p.isLt; omega⟩ : Fin 100000) q : S100000x64.Idx) := by
    funext a; apply Fin.ext
    match a with
    | ⟨0, _⟩ => show win0_5.index t (0 : Fin 2) * 2000 + 1 * p.val = t.val * 2000 + p.val; rw [e0]; omega
    | ⟨1, _⟩ => show win0_5.index t (1 : Fin 2) * 64 + 1 * q.val = q.val; rw [e1]; omega
  rw [he]
  refine (Cert.Sage.Body.pay0_apply (iblk0 V c 0 t) (iblk0 V c 1 t) (V c main_arg2) (V c main_arg4) (V c main_arg3) p q).trans ?_
  unfold G
  rw [relu_apply, relu_apply]
  refine congrArg₂ max ?_ rfl
  exact lin_rows _ _ _ _ _ _ _ p _ q (fun k => rowsA V c t p k _ rfl) (fun k => rowsX V c t p k _ rfl)

/-- An index of the output array is in point `t`'s block iff each coordinate is in the block's range on its axis. -/
theorem mem_blk (t : Fin cfg0.N) (i : S100000x64.Idx) :
    i ∈ ((cfg0.win 5).blk t).view.set ↔ ∀ a : Fin 2, win0_5.index t a * S2000x64.size a ≤ (i a).val ∧ (i a).val < win0_5.index t a * S2000x64.size a + S2000x64.size a := by
  show i ∈ ((View.whole main_v23).slice (win0_5.rect t)).set ↔ _
  rw [View.set_slice_whole, Rect.mem_set_unit]
  exact Iff.rfl

/-- The fifty row blocks tile the output array, so it ends holding the layer. -/
theorem final (c : Dev nD) : (dat0 V c).arrAt 5 cfg0.N = G V c :=
  (dat0 V c).arrAt_eq_of_cover 5 (G V c) (fun t _ => flushed_eq V c t) fun i => by
    have hN : grid0.N = 50 := N_0
    have h0 : (i 0).val < 100000 := (i 0).isLt
    have h1 : (i 1).val < 64 := (i 1).isLt
    have hlt : (i 0).val / 2000 < cfg0.N := by show _ < grid0.N; rw [hN]; omega
    refine ⟨⟨(i 0).val / 2000, hlt⟩, flush0_5 _, ?_⟩
    obtain ⟨-, -, -, -, -, -, -, -, -, e0, e1⟩ := idx_facts ⟨(i 0).val / 2000, hlt⟩
    rw [mem_blk]
    intro a
    match a with
    | ⟨0, _⟩ => show win0_5.index ⟨(i 0).val / 2000, hlt⟩ (0 : Fin 2) * 2000 ≤ (i 0).val ∧ (i 0).val < win0_5.index ⟨(i 0).val / 2000, hlt⟩ (0 : Fin 2) * 2000 + 2000; rw [e0]; show (i 0).val / 2000 * 2000 ≤ (i 0).val ∧ (i 0).val < (i 0).val / 2000 * 2000 + 2000; omega
    | ⟨1, _⟩ => show win0_5.index ⟨(i 0).val / 2000, hlt⟩ (1 : Fin 2) * 64 ≤ (i 1).val ∧ (i 1).val < win0_5.index ⟨(i 0).val / 2000, hlt⟩ (1 : Fin 2) * 64 + 64; rw [e1]; omega

end Cert.Sage.Region0

end
-- ==== Proof.Region1.lean ====
/-
  The second layer's region: from blocks to the array.

  As in the first region, point `t` of fifty fetches rows `2000 t, …, 2000 t + 1999` of the aggregated matrix and of the
  hidden matrix, the whole weight matrices and bias, and writes the body's block back as the same rows of the output.
  The body's block is the layer (not rectified) of the fetched rows, a block of ONE function of the arrays the region
  finds; the fifty blocks tile the output, which ends holding that function.
-/
import proofs.«100469_j53996328845505_1_alg».proof.Proof.Gen.KernelIdeal.Frame
import proofs.«100469_j53996328845505_1_alg».proof.Proof.LayerBody
import Idealize.ShloMosaic.Lib.Pipeline.Value
import Idealize.ShloMosaic.Lib.ValueIdx

set_option maxRecDepth 16384

noncomputable section

namespace Cert.Sage.Region1

open Idealize.ShloMosaic Idealize.ShloMosaic.TcCoe Idealize.ShloMosaic.ValueIdx Idealize.SL.Sem
open Idealize.ShloMosaic.Pipeline (Dat)
open Cert.KernelIdeal Cert.KernelIdeal.Gen Cert.Sage

-- the buffer contents the region is entered from: a parameter, instantiated only when the run is assembled
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- Where each window's block sits at grid point `t`: the two row-blocked inputs and the output at row block `t`,
    the weights and the bias at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Block `t` of the aggregated matrix is its rows `2000 t, …, 2000 t + 1999`. -/
theorem rowsA (c : Dev nD) (t : Fin cfg1.N) (p : Fin 2000) (k : Fin 64) (r : Fin 100000) (hr : r.val = t.val * 2000 + p.val) :
    (iblk1 V c 0 t : Vec Ideal S2000x64 .f32) (ix2 p k) = (V c main_v35 : Vec Ideal S100000x64 .f32) (ix2 r k) := by
  obtain ⟨e0, e1, -⟩ := idx_facts t
  unfold iblk1
  rw [View.read_apply]
  show V c main_v35 _ = V c main_v35 _
  refine congrArg (V c main_v35) (funext fun a => Fin.ext ?_)
  match a with
  | ⟨0, _⟩ => show win1_0.index t (0 : Fin 2) * 2000 + 1 * p.val = r.val; rw [e0, hr]; omega
  | ⟨1, _⟩ => show win1_0.index t (1 : Fin 2) * 64 + 1 * k.val = k.val; rw [e1]; omega

/-- Block `t` of the feature matrix is the same rows of it. -/
theorem rowsX (c : Dev nD) (t : Fin cfg1.N) (p : Fin 2000) (k : Fin 64) (r : Fin 100000) (hr : r.val = t.val * 2000 + p.val) :
    (iblk1 V c 1 t : Vec Ideal S2000x64 .f32) (ix2 p k) = (V c main_v23 : Vec Ideal S100000x64 .f32) (ix2 r k) := by
  obtain ⟨-, -, e0, e1, -⟩ := idx_facts t
  unfold iblk1
  rw [View.read_apply]
  show V c main_v23 _ = V c main_v23 _
  refine congrArg (V c main_v23) (funext fun a => Fin.ext ?_)
  match a with
  | ⟨0, _⟩ => show win1_1.index t (0 : Fin 2) * 2000 + 1 * p.val = r.val; rw [e0, hr]; omega
  | ⟨1, _⟩ => show win1_1.index t (1 : Fin 2) * 64 + 1 * k.val = k.val; rw [e1]; omega

/-- The weights' and the bias's one block is the whole array, at every point. -/
theorem wholeWl (c : Dev nD) (t : Fin cfg1.N) : (iblk1 V c 2 t : Vec Ideal S64x32 .f32) = V c main_arg5 := by
  obtain ⟨-, -, -, -, e0, e1, -⟩ := idx_facts t
  funext y
  unfold iblk1
  rw [View.read_apply]
  show V c main_arg5 _ = V c main_arg5 _
  refine congrArg (V c main_arg5) (funext fun a => Fin.ext ?_)
  match a with
  | ⟨0, _⟩ => show win1_2.index t (0 : Fin 2) * 64 + 1 * (y 0).val = (y 0).val; rw [e0]; omega
  | ⟨1, _⟩ => show win1_2.index t (1 : Fin 2) * 32 + 1 * (y 1).val = (y 1).val; rw [e1]; omega

theorem wholeB (c : Dev nD) (t : Fin cfg1.N) : (iblk1 V c 3 t : Vec Ideal S32 .f32) = V c main_arg6 := by
  obtain ⟨-, -, -, -, -, -, e0, -⟩ := idx_facts t
  funext y
  unfold iblk1
  rw [View.read_apply]
  show V c main_arg6 _ = V c main_arg6 _
  refine congrArg (V c main_arg6) (funext fun a => Fin.ext ?_)
  match a with
  | ⟨0, _⟩ => show win1_3.index t (0 : Fin 1) * 32 + 1 * (y 0).val = (y 0).val; rw [e0]; omega

theorem wholeWr (c : Dev nD) (t : Fin cfg1.N) : (iblk1 V c 4 t : Vec Ideal S64x32 .f32) = V c main_arg7 := by
  obtain ⟨-, -, -, -, -, -, -, e0, e1, -⟩ := idx_facts t
  funext y
  unfold iblk1
  rw [View.read_apply]
  show V c main_arg7 _ = V c main_arg7 _
  refine congrArg (V c main_arg7) (funext fun a => Fin.ext ?_)
  match a with
  | ⟨0, _⟩ => show win1_4.index t (0 : Fin 2) * 64 + 1 * (y 0).val = (y 0).val; rw [e0]; omega
  | ⟨1, _⟩ => show win1_4.index t (1 : Fin 2) * 32 + 1 * (y 1).val = (y 1).val; rw [e1]; omega

/-- The layer as one function of the arrays the region finds. -/
def G (c : Dev nD) : Vec Ideal S100000x32 .f32 :=
   (lin (V c main_v35 : Vec Ideal S100000x64 .f32) (V c main_v23 : Vec Ideal S100000x64 .f32) (V c main_arg5 : Vec Ideal S64x32 .f32)
    (V c main_arg6 : Vec Ideal S32 .f32) (V c main_arg7 : Vec Ideal S64x32 .f32))

/-- What point `t` writes back is rows `2000 t, …` of the layer. -/
theorem flushed_eq (c : Dev nD) (t : Fin cfg1.N) :
    (dat1 V c).flushed 5 t = ((cfg1.win 5).blk t).view.read (Elt Ideal) (G V c) := by
  obtain ⟨-, -, -, -, -, -, -, -, -, e0, e1⟩ := idx_facts t
  have hN : grid1.N = 50 := N_1
  have ht : t.val < 50 := lt_of_lt_of_eq t.isLt hN
  show (cfg1.win 5).cut (grid1.coords t) ((dat1 V c).after 5 t) = _
  rw [after1_5]
  unfold out1_5
  rw [View.canon_unit_zero hz2]
  simp only [View.ld_unit_zero (S := S2000x64) hz2, View.ld_unit_zero (S := S64x32) hz2, View.ld_unit_zero (S := S32) hz1]
  rw [wholeWl V c t, wholeB V c t, wholeWr V c t]
  funext j
  obtain ⟨p, q, rfl⟩ : ∃ (p : Fin 2000) (q : Fin 32), j = ix2 p q := ⟨j 0, j 1, eq_ix2 j⟩
  rw [View.read_apply]
  have he : ((cfg1.win 5).blk t).view.emb (ix2 p q) = (ix2 (⟨t.val * 2000 + p.val, by have := p.isLt; omega⟩ : Fin 100000) q : S100000x32.Idx) := by
    funext a; apply Fin.ext
    match a with
    | ⟨0, _⟩ => show win1_5.index t (0 : Fin 2) * 2000 + 1 * p.val = t.val * 2000 + p.val; rw [e0]; omega
    | ⟨1, _⟩ => show win1_5.index t (1 : Fin 2) * 32 + 1 * q.val = q.val; rw [e1]; omega
  rw [he]
  refine (Cert.Sage.Body.pay1_apply (iblk1 V c 0 t) (iblk1 V c 1 t) (V c main_arg5) (V c main_arg7) (V c main_arg6) p q).trans ?_
  unfold G
  show lin _ _ _ _ _ (ix2 p q) = lin _ _ _ _ _ (ix2 _ q)
  exact lin_rows _ _ _ _ _ _ _ p _ q (fun k => rowsA V c t p k _ rfl) (fun k => rowsX V c t p k _ rfl)

/-- An index of the output array is in point `t`'s block iff each coordinate is in the block's range on its axis. -/
theorem mem_blk (t : Fin cfg1.N) (i : S100000x32.Idx) :
    i ∈ ((cfg1.win 5).blk t).view.set ↔ ∀ a : Fin 2, win1_5.index t a * S2000x32.size a ≤ (i a).val ∧ (i a).val < win1_5.index t a * S2000x32.size a + S2000x32.size a := by
  show i ∈ ((View.whole main_v36).slice (win1_5.rect t)).set ↔ _
  rw [View.set_slice_whole, Rect.mem_set_unit]
  exact Iff.rfl

/-- The fifty row blocks tile the output array, so it ends holding the layer. -/
theorem final (c : Dev nD) : (dat1 V c).arrAt 5 cfg1.N = G V c :=
  (dat1 V c).arrAt_eq_of_cover 5 (G V c) (fun t _ => flushed_eq V c t) fun i => by
    have hN : grid1.N = 50 := N_1
    have h0 : (i 0).val < 100000 := (i 0).isLt
    have h1 : (i 1).val < 32 := (i 1).isLt
    have hlt : (i 0).val / 2000 < cfg1.N := by show _ < grid1.N; rw [hN]; omega
    refine ⟨⟨(i 0).val / 2000, hlt⟩, flush1_5 _, ?_⟩
    obtain ⟨-, -, -, -, -, -, -, -, -, e0, e1⟩ := idx_facts ⟨(i 0).val / 2000, hlt⟩
    rw [mem_blk]
    intro a
    match a with
    | ⟨0, _⟩ => show win1_5.index ⟨(i 0).val / 2000, hlt⟩ (0 : Fin 2) * 2000 ≤ (i 0).val ∧ (i 0).val < win1_5.index ⟨(i 0).val / 2000, hlt⟩ (0 : Fin 2) * 2000 + 2000; rw [e0]; show (i 0).val / 2000 * 2000 ≤ (i 0).val ∧ (i 0).val < (i 0).val / 2000 * 2000 + 2000; omega
    | ⟨1, _⟩ => show win1_5.index ⟨(i 0).val / 2000, hlt⟩ (1 : Fin 2) * 32 ≤ (i 1).val ∧ (i 1).val < win1_5.index ⟨(i 0).val / 2000, hlt⟩ (1 : Fin 2) * 32 + 32; rw [e1]; omega

end Cert.Sage.Region1

end
-- ==== Proof.KernelRun.lean ====
/-
  The kernel program's run with its result array named.

  The program is four stretches: the host operations that aggregate the input features over the edges, the first
  layer's region, the host operations that aggregate the first layer's output, the second layer's region.  Every weakly
  fair execution terminates without a fault, and the final memory holds, at every buffer no region scopes, the fold of
  the four stretches from the launch memory.  Read at the result buffer that fold is the second region's output array
  after its fifty write-backs; read at an argument it is the argument as launched.
-/
import proofs.«100469_j53996328845505_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting; the result array ends as the second
    region's output array after all its write-backs, and every argument array ends as launched. -/
theorem run_out : θ_run defs (onTc (τ := τ) (main (F := F))) ⟨m, fun _ => 0, ρ⟩ (fun r => ∀ c : Dev nD,
      r.2.mem ((c.tc : Thread nD τ).loc main_v36) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v36 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.KernelValue.lean ====
/-
  The kernel program's result as one function of its arguments.

  The first region is entered with the neighbour mean of the input beside the input and the first layer's weights, so
  its output array ends holding the hidden layer `h`.  The second stretch leaves that array and the arguments alone and
  computes the neighbour mean of `h` from the same edge rows and in-degree column, so the second region is entered with
  `mean h` beside `h` and the second layer's weights, and its output array — the program's result — ends holding
  `lin (mean h) h W2l b2l W2r`, the network's output.
-/
import proofs.«100469_j53996328845505_1_alg».proof.Proof.HostStages
import proofs.«100469_j53996328845505_1_alg».proof.Proof.Region0
import proofs.«100469_j53996328845505_1_alg».proof.Proof.Region1
import proofs.«100469_j53996328845505_1_alg».proof.Proof.KernelRun

set_option maxRecDepth 16384

noncomputable section

namespace Cert.Sage.Kernel

open Idealize.ShloMosaic Idealize.ShloMosaic.TcCoe Idealize.SL.Sem Idealize.ShloMosaic.StableHlo
open Idealize.ShloMosaic.Pipeline (Dat)
open Cert.KernelIdeal Cert.KernelIdeal.Gen Cert.Sage Cert.Sage.Net Cert.Sage.Host

variable (m : (ℓ : Loc nD τ sig) → Buf (Elt Ideal) ℓ) (ρ : Dev nD → PrngReg)

/-- The first region's output array ends holding the hidden layer. -/
theorem hidden_arr (c : Dev nD) :
    (dat0 (V1 m ρ) c).arrAt 5 cfg0.N = Net.hidden (m ((c : Thread nD τ).loc main_arg0)) (m ((c : Thread nD τ).loc main_arg1)) (m ((c : Thread nD τ).loc main_arg2)) (m ((c : Thread nD τ).loc main_arg3)) (m ((c : Thread nD τ).loc main_arg4)) := by
  rw [Region0.final (V1 m ρ) c]
  unfold Region0.G Net.hidden
  rw [entry1_mean m ρ c, entry1_arg0 m ρ c, entry1_arg2 m ρ c, entry1_arg3 m ρ c, entry1_arg4 m ρ c]

/-- So that is what the memory holds there when the second stretch starts. -/
theorem exit1_hidden (c : Dev nD) : W2 m ρ c (Proc.devRef .tc main_v23) = Net.hidden (m ((c : Thread nD τ).loc main_arg0)) (m ((c : Thread nD τ).loc main_arg1)) (m ((c : Thread nD τ).loc main_arg2)) (m ((c : Thread nD τ).loc main_arg3)) (m ((c : Thread nD τ).loc main_arg4)) :=
  (W2_arr m ρ c 5).trans (hidden_arr m ρ c)

/-- The first region writes nothing but its output array: the edge rows and the in-degree column are as the first
    stretch left them. -/
theorem exit1_src (c : Dev nD) : W2 m ρ c (Proc.devRef .tc main_v1) = srcOf (m ((c : Thread nD τ).loc main_arg1)) :=
  (W2_of_ne m ρ c main_v1 (by decide)).trans (entry1_src m ρ c)
theorem exit1_dst (c : Dev nD) : W2 m ρ c (Proc.devRef .tc main_v3) = dstOf (m ((c : Thread nD τ).loc main_arg1)) :=
  (W2_of_ne m ρ c main_v3 (by decide)).trans (entry1_dst m ρ c)
theorem exit1_deg (c : Dev nD) : W2 m ρ c (Proc.devRef .tc main_v10) = degOf (dstOf (m ((c : Thread nD τ).loc main_arg1))) :=
  (W2_of_ne m ρ c main_v10 (by decide)).trans (entry1_deg m ρ c)

/-! ## The second stretch: what the second region finds -/

set_option maxHeartbeats 4000000 in
/-- The second region's aggregated operand is the neighbour mean of what the first region left in its output. -/
theorem entry2_mean (c : Dev nD) :
    V3 m ρ c main_v35 = meanOf (W2 m ρ c (Proc.devRef .tc main_v23)) (W2 m ρ c (Proc.devRef .tc main_v1))
      (W2 m ρ c (Proc.devRef .tc main_v3)) (W2 m ρ c (Proc.devRef .tc main_v10)) := by
  show StableHlo.after hostOps1 (W2 m ρ c) (Proc.devRef .tc main_v35) = _
  after_results_simp
  rfl

/-- The second stretch writes neither the first region's output nor an argument. -/
theorem entry2_h (c : Dev nD) : V3 m ρ c main_v23 = W2 m ρ c (Proc.devRef .tc main_v23) := by
  show StableHlo.after hostOps1 (W2 m ρ c) (Proc.devRef .tc main_v23) = _
  after_results
theorem entry2_arg5 (c : Dev nD) : V3 m ρ c main_arg5 = (m ((c : Thread nD τ).loc main_arg5)) := by
  show StableHlo.after hostOps1 (W2 m ρ c) (Proc.devRef .tc main_arg5) = _
  after_results
  refine (W2_of_ne m ρ c main_arg5 (by decide)).trans ?_
  show StableHlo.after hostOps0 (W0 m ρ c) (Proc.devRef .tc main_arg5) = _
  after_results
theorem entry2_arg6 (c : Dev nD) : V3 m ρ c main_arg6 = (m ((c : Thread nD τ).loc main_arg6)) := by
  show StableHlo.after hostOps1 (W2 m ρ c) (Proc.devRef .tc main_arg6) = _
  after_results
  refine (W2_of_ne m ρ c main_arg6 (by decide)).trans ?_
  show StableHlo.after hostOps0 (W0 m ρ c) (Proc.devRef .tc main_arg6) = _
  after_results
theorem entry2_arg7 (c : Dev nD) : V3 m ρ c main_arg7 = (m ((c : Thread nD τ).loc main_arg7)) := by
  show StableHlo.after hostOps1 (W2 m ρ c) (Proc.devRef .tc main_arg7) = _
  after_results
  refine (W2_of_ne m ρ c main_arg7 (by decide)).trans ?_
  show StableHlo.after hostOps0 (W0 m ρ c) (Proc.devRef .tc main_arg7) = _
  after_results

/-- The second region's output array — the program's result — ends holding the network's output. -/
theorem output_arr (c : Dev nD) :
    (dat1 (V3 m ρ) c).arrAt 5 cfg1.N = Net.output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [Region1.final (V3 m ρ) c]
  unfold Region1.G Net.output Net.mean
  rw [entry2_mean m ρ c, entry2_h m ρ c, entry2_arg5 m ρ c, entry2_arg6 m ρ c, entry2_arg7 m ρ c,
    exit1_hidden m ρ c, exit1_src m ρ c, exit1_dst m ρ c, exit1_deg m ρ c]

/-- THE KERNEL PROGRAM'S RUN: it terminates without a fault, its result is the network's output of its arguments, and
    its arguments are unchanged. -/
theorem run : θ_run defs (onTc (τ := τ) (main (F := Ideal))) ⟨m, fun _ => 0, ρ⟩ (fun r => ∀ c : Dev nD,
      r.2.mem ((c.tc : Thread nD τ).loc main_v36) = Net.output (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (output_arr m ρ c), (h c).2⟩)
    (Cert.KernelIdeal.RunValue.run_out (F := Ideal) m ρ)

end Cert.Sage.Kernel

end
-- ==== Proof.RefValue.lean ====
/-
  The reference program computes the same network.

  Its stages are the neighbour mean of the input (the same host operations with the same dimension records as in the
  definition of `mean`), two whole matrix products and a bias row added in the grouping `(A·Wl + b) + X·Wr`, the
  rectifier, then the same again on the hidden matrix without the rectifier.  A whole matrix product read at `(p, q)`
  is the sum over `k` of the products of row `p` and column `q`, which is the sum the layer's definition spells; so
  stage by stage the reference's result is `output`.
-/
import proofs.«100469_j53996328845505_1_alg».proof.Proof.Gen.ReferenceIdeal.Read
import proofs.«100469_j53996328845505_1_alg».proof.Proof.SageNet
import Idealize.ShloMosaic.Lib.ValueIdx

set_option maxRecDepth 16384

noncomputable section

namespace Cert.Sage.Ref

open Idealize.ShloMosaic Idealize.ShloMosaic.TcCoe Idealize.ShloMosaic.ValueIdx Idealize.SL.Sem
open Cert.ReferenceIdeal Cert.ReferenceIdeal.Read Cert.Sage

/-! ## Rows, columns and the bias entry, as the layer's definition indexes them -/

theorem lidx23 (p : Fin 100000) (q k : Fin 64) : lidx_main_v23 (ix2 p q) k = ix2 p k :=
  funext fun a => match a with | ⟨0, _⟩ => rfl | ⟨1, _⟩ => rfl
theorem ridx23 (p : Fin 100000) (q k : Fin 64) : ridx_main_v23 (ix2 p q) k = ix2 k q :=
  funext fun a => match a with | ⟨0, _⟩ => rfl | ⟨1, _⟩ => rfl
theorem lidx27 (p : Fin 100000) (q k : Fin 64) : lidx_main_v27 (ix2 p q) k = ix2 p k :=
  funext fun a => match a with | ⟨0, _⟩ => rfl | ⟨1, _⟩ => rfl
theorem ridx27 (p : Fin 100000) (q k : Fin 64) : ridx_main_v27 (ix2 p q) k = ix2 k q :=
  funext fun a => match a with | ⟨0, _⟩ => rfl | ⟨1, _⟩ => rfl
theorem lidx49 (p : Fin 100000) (q : Fin 32) (k : Fin 64) : lidx_main_v49 (ix2 p q) k = ix2 p k :=
  funext fun a => match a with | ⟨0, _⟩ => rfl | ⟨1, _⟩ => rfl
theorem ridx49 (p : Fin 100000) (q : Fin 32) (k : Fin 64) : ridx_main_v49 (ix2 p q) k = ix2 k q :=
  funext fun a => match a with | ⟨0, _⟩ => rfl | ⟨1, _⟩ => rfl
theorem lidx53 (p : Fin 100000) (q : Fin 32) (k : Fin 64) : lidx_main_v53 (ix2 p q) k = ix2 p k :=
  funext fun a => match a with | ⟨0, _⟩ => rfl | ⟨1, _⟩ => rfl
theorem ridx53 (p : Fin 100000) (q : Fin 32) (k : Fin 64) : ridx_main_v53 (ix2 p q) k = ix2 k q :=
  funext fun a => match a with | ⟨0, _⟩ => rfl | ⟨1, _⟩ => rfl
theorem idx25 (p : Fin 100000) (q : Fin 64) : idx_main_v24 (idx_main_v25 (ix2 p q)) = ix1 q :=
  funext fun a => match a with | ⟨0, _⟩ => rfl
theorem idx51 (p : Fin 100000) (q : Fin 32) : idx_main_v50 (idx_main_v51 (ix2 p q)) = ix1 q :=
  funext fun a => match a with | ⟨0, _⟩ => rfl

/-! ## The stages -/

/-- The reference's first aggregation is the neighbour mean of the input features. -/
theorem mean1 (x0 : (⟨S100000x64, .f32⟩ : BufTy).Contents (Elt Ideal)) (x1 : (⟨S2x3200000, .i32⟩ : BufTy).Contents (Elt Ideal)) :
    val_main_v22 (F := Ideal) x0 x1 = Net.mean x0 x1 := rfl

/-- Its second aggregation is the neighbour mean of its hidden matrix. -/
theorem mean2 (x0 : (⟨S100000x64, .f32⟩ : BufTy).Contents (Elt Ideal)) (x1 : (⟨S2x3200000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) :
    val_main_v48 (F := Ideal) x0 x1 x2 x3 x4 = Net.mean (val_main_v29 (F := Ideal) x0 x1 x2 x3 x4) x1 := rfl

/-- Its hidden matrix is the hidden layer. -/
theorem hidden_eq (x0 : (⟨S100000x64, .f32⟩ : BufTy).Contents (Elt Ideal)) (x1 : (⟨S2x3200000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) :
    val_main_v29 (F := Ideal) x0 x1 x2 x3 x4 = Net.hidden x0 x1 x2 x3 x4 := by
  funext i
  obtain ⟨p, q, rfl⟩ : ∃ (p : Fin 100000) (q : Fin 64), i = ix2 p q := ⟨i 0, i 1, eq_ix2 i⟩
  rw [val_main_v29_apply, val_main_v28_apply, val_main_v26_apply, val_main_v23_apply, val_main_v25_apply, val_main_v24_apply,
    val_main_v27_apply, val_main_call0_v0_apply, val_main_call0_cst_apply, mean1]
  simp only [lidx23, ridx23, lidx27, ridx27, idx25]
  rfl

/-- Its result is the network's output. -/
theorem output_eq (x0 : (⟨S100000x64, .f32⟩ : BufTy).Contents (Elt Ideal)) (x1 : (⟨S2x3200000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal))
    (x5 : (⟨S64x32, .f32⟩ : BufTy).Contents (Elt Ideal)) (x6 : (⟨S32, .f32⟩ : BufTy).Contents (Elt Ideal)) (x7 : (⟨S64x32, .f32⟩ : BufTy).Contents (Elt Ideal)) :
    val_main_v54 (F := Ideal) x0 x1 x2 x3 x4 x5 x6 x7 = Net.output x0 x1 x2 x3 x4 x5 x6 x7 := by
  funext i
  obtain ⟨p, q, rfl⟩ : ∃ (p : Fin 100000) (q : Fin 32), i = ix2 p q := ⟨i 0, i 1, eq_ix2 i⟩
  rw [val_main_v54_apply, val_main_v52_apply, val_main_v49_apply, val_main_v51_apply, val_main_v50_apply, val_main_v53_apply,
    mean2, hidden_eq]
  simp only [lidx49, ridx49, lidx53, ridx53, idx51]
  rfl

/-- The reference run's result term is the network's output of the launch arguments. -/
theorem result_eq (m : (ℓ : Loc nD τ sig) → Buf (Elt Ideal) ℓ) (c : Dev nD) :
    Cert.ReferenceIdeal.Value.res_main_v54 m c
      = Net.output (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) :=
  (val_main_v54_eq m c).trans (output_eq _ _ _ _ _ _ _ _)

end Cert.Sage.Ref

end
-- ==== Proof.lean ====
/-
  A two-layer mean-aggregating graph convolution: the tiled kernel program against its plain reference, over the
  extended reals.

  Both programs compute, from node features `x : [100000, 64]`, an edge list `ei : [2, 3200000]` and the two layers'
  weights and biases,

      h   = relu ((mean x · W1l + b1l) + x · W1r),
      out =       (mean h · W2l + b2l) + h · W2r,

  where `mean f` gathers the rows of `f` at the edges' sources, adds them into the rows at the edges' destinations and
  divides each row by the destination's in-degree floored at one.  The reference forms the two matrix products of each
  layer whole.  The kernel program computes `mean` with the same host operations and gives each layer to a region that
  walks fifty blocks of 2000 rows: a block's body multiplies the block's rows by the weights into a zero accumulator,
  adds the bias row and the second product in the same grouping, and (first layer) rectifies.  A change of float format
  is the identity over the extended reals and a product into zero is the plain sum of products, so each block written
  back is the same rows of the layer, the blocks tile the output, and the two programs' results are one function of the
  arguments, `Cert.Sage.Net.output`.  Nothing but congruence is used of the extended reals: the sums are the same sums
  in the same grouping, so the inputs' finiteness is never needed.

  The three frames are the generated ones (the reference's is its generated run with the result dropped); the
  idealization rewrote no operation, so its conjunct is `True`.
-/
import proofs.«100469_j53996328845505_1_alg».proof.Defs
import proofs.«100469_j53996328845505_1_alg».proof.Proof.Gen.Kernel
import proofs.«100469_j53996328845505_1_alg».proof.Proof.Gen.Kernel.Skeleton
import proofs.«100469_j53996328845505_1_alg».proof.Proof.Gen.Kernel.Launch
import proofs.«100469_j53996328845505_1_alg».proof.Proof.Gen.Kernel.Points
import proofs.«100469_j53996328845505_1_alg».proof.Proof.Gen.Kernel.Frame
import proofs.«100469_j53996328845505_1_alg».proof.Proof.Gen.KernelIdeal
import proofs.«100469_j53996328845505_1_alg».proof.Proof.Gen.KernelIdeal.Skeleton
import proofs.«100469_j53996328845505_1_alg».proof.Proof.Gen.KernelIdeal.Launch
import proofs.«100469_j53996328845505_1_alg».proof.Proof.Gen.KernelIdeal.Points
import proofs.«100469_j53996328845505_1_alg».proof.Proof.Gen.KernelIdeal.Frame
import proofs.«100469_j53996328845505_1_alg».proof.Proof.Gen.ReferenceIdeal
import proofs.«100469_j53996328845505_1_alg».proof.Proof.Gen.Pre_finite_inputs
import proofs.«100469_j53996328845505_1_alg».proof.Proof.Gen.ReferenceIdeal.Run
import proofs.«100469_j53996328845505_1_alg».proof.Proof.Gen.ReferenceIdeal.Read
import proofs.«100469_j53996328845505_1_alg».proof.Proof.KernelValue
import proofs.«100469_j53996328845505_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments unchanged. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- And the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, both programs end with the network's output of those arguments. -/
theorem algebraic : Cert.algebraic_KernelIdeal_ReferenceIdeal := by
  intro m ρ m' ρ' _ hagree
  refine ⟨_, Cert.Sage.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.Sage.Ref.result_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
